-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256x256 .f32) (main_arg9 : FVec F S256x256 .f32) (main_arg10 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S256x256 .f32) (main_arg6 : FVec F S256x256 .f32) (main_arg7 : FVec F S256 .f32) (main_arg8 : FVec F S256x256 .f32) (main_arg9 : FVec F S256x256 .f32) (main_arg10 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x400000 32) (main_arg2 : FVec F S128x256 .f32) (main_arg3 : FVec F S128x256 .f32) (main_arg4 : FVec F S256 .f32) (main_arg5 : FVec F S256x256 .f32) (main_arg6 : FVec F S256x256 .f32) (main_arg7 : FVec F S256 .f32) (main_arg8 : FVec F S256x256 .f32) (main_arg9 : FVec F S256x256 .f32) (main_arg10 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x400000 : Shape := ⟨2, ![2, 400000]⟩
abbrev S128x256 : Shape := ⟨2, ![128, 256]⟩
abbrev S256 : Shape := ⟨1, ![256]⟩
abbrev S256x256 : Shape := ⟨2, ![256, 256]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S400000x128 : Shape := ⟨2, ![400000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S400000x256 : Shape := ⟨2, ![400000, 256]⟩

abbrev nBuf : Space → Nat
  | .hbm => 111
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S1x400000, .i32⟩
  | .hbm, ⟨12, _⟩ => ⟨S400000, .i32⟩
  | .hbm, ⟨13, _⟩ => ⟨S1x400000, .i32⟩
  | .hbm, ⟨14, _⟩ => ⟨S400000, .i32⟩
  | .hbm, ⟨15, _⟩ => ⟨S400000, .i1⟩
  | .hbm, ⟨16, _⟩ => ⟨S400000, .f32⟩
  | .hbm, ⟨17, _⟩ => ⟨S_, .f32⟩
  | .hbm, ⟨18, _⟩ => ⟨S50000, .f32⟩
  | .hbm, ⟨19, _⟩ => ⟨S400000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S400000, .i32⟩
  | .hbm, ⟨38, _⟩ => ⟨S400000, .i1⟩
  | .hbm, ⟨39, _⟩ => ⟨S_, .i32⟩
  | .hbm, ⟨40, _⟩ => ⟨S400000, .i32⟩
  | .hbm, ⟨41, _⟩ => ⟨S400000, .i32⟩
  | .hbm, ⟨42, _⟩ => ⟨S400000, .i32⟩
  | .hbm, ⟨43, _⟩ => ⟨S400000x1, .i32⟩
  | .hbm, ⟨44, _⟩ => ⟨S400000, .f32⟩
  | .hbm, ⟨45, _⟩ => ⟨S400000, .f32⟩
  | .hbm, ⟨46, _⟩ => ⟨S_, .i32⟩
  | .hbm, ⟨47, _⟩ => ⟨S400000, .i32⟩
  | .hbm, ⟨48, _⟩ => ⟨S400000, .i1⟩
  | .hbm, ⟨49, _⟩ => ⟨S_, .i32⟩
  | .hbm, ⟨50, _⟩ => ⟨S400000, .i32⟩
  | .hbm, ⟨51, _⟩ => ⟨S400000, .i32⟩
  | .hbm, ⟨52, _⟩ => ⟨S400000, .i32⟩
  | .hbm, ⟨53, _⟩ => ⟨S400000x1, .i32⟩
  | .hbm, ⟨54, _⟩ => ⟨S400000, .f32⟩
  | .hbm, ⟨55, _⟩ => ⟨S400000, .f32⟩
  | .hbm, ⟨56, _⟩ => ⟨S400000, .f32⟩
  | .hbm, ⟨57, _⟩ => ⟨S400000x1, .f32⟩
  | .hbm, ⟨58, _⟩ => ⟨S_, .i32⟩
  | .hbm, ⟨59, _⟩ => ⟨S400000, .i32⟩
  | .hbm, ⟨60, _⟩ => ⟨S400000, .i1⟩
  | .hbm, ⟨61, _⟩ => ⟨S_, .i32⟩
  | .hbm, ⟨62, _⟩ => ⟨S400000, .i32⟩
  | .hbm, ⟨63, _⟩ => ⟨S400000, .i32⟩
  | .hbm, ⟨64, _⟩ => ⟨S400000, .i32⟩
  | .hbm, ⟨65, _⟩ => ⟨S400000x1, .i32⟩
  | .hbm, ⟨66, _⟩ => ⟨S400000x128, .f32⟩
  | .hbm, ⟨67, _⟩ => ⟨S400000x128, .f32⟩
  | .hbm, ⟨68, _⟩ => ⟨S400000x128, .f32⟩
  | .hbm, ⟨69, _⟩ => ⟨S_, .f32⟩
  | .hbm, ⟨70, _⟩ => ⟨S50000x128, .f32⟩
  | .hbm, ⟨71, _⟩ => ⟨S400000x1, .i32⟩
  | .hbm, ⟨72, _⟩ => ⟨S50000x128, .f32⟩
  | .hbm, ⟨73, _⟩ => ⟨S1x256, .f32⟩
  | .hbm, ⟨74, _⟩ => ⟨S50000x256, .f32⟩
  | .hbm, ⟨75, _⟩ => ⟨S400000x1, .f32⟩
  | .hbm, ⟨76, _⟩ => ⟨S_, .i32⟩
  | .hbm, ⟨77, _⟩ => ⟨S400000, .i32⟩
  | .hbm, ⟨78, _⟩ => ⟨S400000, .i1⟩
  | .hbm, ⟨79, _⟩ => ⟨S_, .i32⟩
  | .hbm, ⟨80, _⟩ => ⟨S400000, .i32⟩
  | .hbm, ⟨81, _⟩ => ⟨S400000, .i32⟩
  | .hbm, ⟨82, _⟩ => ⟨S400000, .i32⟩
  | .hbm, ⟨83, _⟩ => ⟨S400000x1, .i32⟩
  | .hbm, ⟨84, _⟩ => ⟨S400000x256, .f32⟩
  | .hbm, ⟨85, _⟩ => ⟨S400000x256, .f32⟩
  | .hbm, ⟨86, _⟩ => ⟨S400000x256, .f32⟩
  | .hbm, ⟨87, _⟩ => ⟨S_, .f32⟩
  | .hbm, ⟨88, _⟩ => ⟨S50000x256, .f32⟩
  | .hbm, ⟨89, _⟩ => ⟨S400000x1, .i32⟩
  | .hbm, ⟨90, _⟩ => ⟨S50000x256, .f32⟩
  | .hbm, ⟨91, _⟩ => ⟨S1x256, .f32⟩
  | .hbm, ⟨92, _⟩ => ⟨S50000x256, .f32⟩
  | .hbm, ⟨93, _⟩ => ⟨S400000x1, .f32⟩
  | .hbm, ⟨94, _⟩ => ⟨S_, .i32⟩
  | .hbm, ⟨95, _⟩ => ⟨S400000, .i32⟩
  | .hbm, ⟨96, _⟩ => ⟨S400000, .i1⟩
  | .hbm, ⟨97, _⟩ => ⟨S_, .i32⟩
  | .hbm, ⟨98, _⟩ => ⟨S400000, .i32⟩
  | .hbm, ⟨99, _⟩ => ⟨S400000, .i32⟩
  | .hbm, ⟨100, _⟩ => ⟨S400000, .i32⟩
  | .hbm, ⟨101, _⟩ => ⟨S400000x1, .i32⟩
  | .hbm, ⟨102, _⟩ => ⟨S400000x256, .f32⟩
  | .hbm, ⟨103, _⟩ => ⟨S400000x256, .f32⟩
  | .hbm, ⟨104, _⟩ => ⟨S400000x256, .f32⟩
  | .hbm, ⟨105, _⟩ => ⟨S_, .f32⟩
  | .hbm, ⟨106, _⟩ => ⟨S50000x256, .f32⟩
  | .hbm, ⟨107, _⟩ => ⟨S400000x1, .i32⟩
  | .hbm, ⟨108, _⟩ => ⟨S50000x256, .f32⟩
  | .hbm, ⟨109, _⟩ => ⟨S1x256, .f32⟩
  | .hbm, ⟨110, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S256x256, .f32⟩
  | .local _ .vmem, ⟨24, _⟩ => ⟨S1x256, .f32⟩
  | .local _ .vmem, ⟨25, _⟩ => ⟨S2000x256, .f32⟩
  | .local _ .vmem, ⟨26, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_10 : Ref sig .tc := ⟨.hbm, 76, rfl⟩
abbrev main_v49 : Ref sig .tc := ⟨.hbm, 77, rfl⟩
abbrev main_v50 : Ref sig .tc := ⟨.hbm, 78, rfl⟩
abbrev main_c_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S50000 : S_.BroadcastsInDim S50000 (![] : Fin 0 → Fin S50000.rank)
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x128_0_1 : S400000x1.BroadcastsInDim S400000x128 (![0, 1] : Fin 2 → Fin S400000x128.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  dot_S2000x128_S128x256_S2000x256_1_0_0_1_n_n_wf : DotDims.WF S2000x128 S128x256 S2000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v62) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v76) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S128x256 : Shape := ⟨2, ![128, 256]⟩
abbrev S256 : Shape := ⟨1, ![256]⟩
abbrev S256x256 : Shape := ⟨2, ![256, 256]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S400000x128 : Shape := ⟨2, ![400000, 128]⟩
abbrev S50000x256 : Shape := ⟨2, ![50000, 256]⟩
abbrev S1x256 : Shape := ⟨2, ![1, 256]⟩
abbrev S400000x256 : Shape := ⟨2, ![400000, 256]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x400000, .i32⟩
  | 2 => ⟨S128x256, .f32⟩
  | 3 => ⟨S128x256, .f32⟩
  | 4 => ⟨S256, .f32⟩
  | 5 => ⟨S256x256, .f32⟩
  | 6 => ⟨S256x256, .f32⟩
  | 7 => ⟨S256, .f32⟩
  | 8 => ⟨S256x256, .f32⟩
  | 9 => ⟨S256x256, .f32⟩
  | 10 => ⟨S256, .f32⟩
  | 11 => ⟨S1x400000, .i32⟩
  | 12 => ⟨S400000, .i32⟩
  | 13 => ⟨S1x400000, .i32⟩
  | 14 => ⟨S400000, .i32⟩
  | 15 => ⟨S400000, .i1⟩
  | 16 => ⟨S400000, .f32⟩
  | 17 => ⟨S_, .f32⟩
  | 18 => ⟨S50000, .f32⟩
  | 19 => ⟨S400000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .i1⟩
  | 27 => ⟨S_, .f32⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000, .f32⟩
  | 45 => ⟨S400000, .f32⟩
  | 46 => ⟨S_, .i32⟩
  | 47 => ⟨S400000, .i32⟩
  | 48 => ⟨S400000, .i1⟩
  | 49 => ⟨S_, .i32⟩
  | 50 => ⟨S400000, .i32⟩
  | 51 => ⟨S400000, .i32⟩
  | 52 => ⟨S400000, .i32⟩
  | 53 => ⟨S400000x1, .i32⟩
  | 54 => ⟨S400000, .f32⟩
  | 55 => ⟨S400000, .f32⟩
  | 56 => ⟨S400000, .f32⟩
  | 57 => ⟨S400000x1, .f32⟩
  | 58 => ⟨S_, .i32⟩
  | 59 => ⟨S400000, .i32⟩
  | 60 => ⟨S400000, .i1⟩
  | 61 => ⟨S_, .i32⟩
  | 62 => ⟨S400000, .i32⟩
  | 63 => ⟨S400000, .i32⟩
  | 64 => ⟨S400000, .i32⟩
  | 65 => ⟨S400000x1, .i32⟩
  | 66 => ⟨S400000x128, .f32⟩
  | 67 => ⟨S400000x128, .f32⟩
  | 68 => ⟨S400000x128, .f32⟩
  | 69 => ⟨S_, .f32⟩
  | 70 => ⟨S50000x128, .f32⟩
  | 71 => ⟨S400000x1, .i32⟩
  | 72 => ⟨S50000x128, .f32⟩
  | 73 => ⟨S50000x256, .f32⟩
  | 74 => ⟨S50000x256, .f32⟩
  | 75 => ⟨S50000x256, .f32⟩
  | 76 => ⟨S1x256, .f32⟩
  | 77 => ⟨S50000x256, .f32⟩
  | 78 => ⟨S50000x256, .f32⟩
  | 79 => ⟨S_, .f32⟩
  | 80 => ⟨S50000x256, .f32⟩
  | 81 => ⟨S50000x256, .f32⟩
  | 82 => ⟨S400000x1, .f32⟩
  | 83 => ⟨S_, .i32⟩
  | 84 => ⟨S400000, .i32⟩
  | 85 => ⟨S400000, .i1⟩
  | 86 => ⟨S_, .i32⟩
  | 87 => ⟨S400000, .i32⟩
  | 88 => ⟨S400000, .i32⟩
  | 89 => ⟨S400000, .i32⟩
  | 90 => ⟨S400000x1, .i32⟩
  | 91 => ⟨S400000x256, .f32⟩
  | 92 => ⟨S400000x256, .f32⟩
  | 93 => ⟨S400000x256, .f32⟩
  | 94 => ⟨S_, .f32⟩
  | 95 => ⟨S50000x256, .f32⟩
  | 96 => ⟨S400000x1, .i32⟩
  | 97 => ⟨S50000x256, .f32⟩
  | 98 => ⟨S50000x256, .f32⟩
  | 99 => ⟨S50000x256, .f32⟩
  | 100 => ⟨S50000x256, .f32⟩
  | 101 => ⟨S1x256, .f32⟩
  | 102 => ⟨S50000x256, .f32⟩
  | 103 => ⟨S50000x256, .f32⟩
  | 104 => ⟨S_, .f32⟩
  | 105 => ⟨S50000x256, .f32⟩
  | 106 => ⟨S50000x256, .f32⟩
  | 107 => ⟨S400000x1, .f32⟩
  | 108 => ⟨S_, .i32⟩
  | 109 => ⟨S400000, .i32⟩
  | 110 => ⟨S400000, .i1⟩
  | 111 => ⟨S_, .i32⟩
  | 112 => ⟨S400000, .i32⟩
  | 113 => ⟨S400000, .i32⟩
  | 114 => ⟨S400000, .i32⟩
  | 115 => ⟨S400000x1, .i32⟩
  | 116 => ⟨S400000x256, .f32⟩
  | 117 => ⟨S400000x256, .f32⟩
  | 118 => ⟨S400000x256, .f32⟩
  | 119 => ⟨S_, .f32⟩
  | 120 => ⟨S50000x256, .f32⟩
  | 121 => ⟨S400000x1, .i32⟩
  | 122 => ⟨S50000x256, .f32⟩
  | 123 => ⟨S50000x256, .f32⟩
  | 124 => ⟨S50000x256, .f32⟩
  | 125 => ⟨S50000x256, .f32⟩
  | 126 => ⟨S1x256, .f32⟩
  | 127 => ⟨S50000x256, .f32⟩
  | _ => ⟨S50000x128, .f32⟩

abbrev hbmTy0_1 (i : Nat) : BufTy := match i % 128 with
  | 0 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call2_cst : Ref sig .tc := ⟨.hbm, 79, rfl⟩
abbrev main_call2_v0 : Ref sig .tc := ⟨.hbm, 80, rfl⟩
abbrev main_v52 : Ref sig .tc := ⟨.hbm, 81, rfl⟩
abbrev main_v53 : Ref sig .tc := ⟨.hbm, 82, rfl⟩
abbrev main_c_10 : Ref sig .tc := ⟨.hbm, 83, rfl⟩
abbrev main_v54 : Ref sig .tc := ⟨.hbm, 84, rfl⟩
abbrev main_v55 : Ref sig .tc := ⟨.hbm, 85, rfl⟩
abbrev main_c_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call3_cst : Ref sig .tc := ⟨.hbm, 104, rfl⟩
abbrev main_call3_v0 : Ref sig .tc := ⟨.hbm, 105, rfl⟩
abbrev main_v72 : Ref sig .tc := ⟨.hbm, 106, rfl⟩
abbrev main_v73 : Ref sig .tc := ⟨.hbm, 107, rfl⟩
abbrev main_c_13 : Ref sig .tc := ⟨.hbm, 108, rfl⟩
abbrev main_v74 : Ref sig .tc := ⟨.hbm, 109, rfl⟩
abbrev main_v75 : Ref sig .tc := ⟨.hbm, 110, rfl⟩
abbrev main_c_14 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_15 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S50000 : S_.BroadcastsInDim S50000 (![] : Fin 0 → Fin S50000.rank)
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x128_0_1 : S400000x1.BroadcastsInDim S400000x128 (![0, 1] : Fin 2 → Fin S400000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S400000x1_S400000x256_0_1 : S400000x1.BroadcastsInDim S400000x256 (![0, 1] : Fin 2 → Fin S400000x256.rank)
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  dot_S50000x128_S128x256_S50000x256_1_0_0_1_n_n_wf : DotDims.WF S50000x128 S128x256 S50000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S50000x256_S256x256_S50000x256_1_0_0_1_n_n_wf : DotDims.WF S50000x256 S256x256 S50000x256 [1] [0] [0] [1] [] []

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The whole program's run, read for values.  The program is three kernel launches among stretches of host
  operations; the generated frame module folds the buffers' contents through these ten segments (host stretch,
  …, launch, host stretch, launch, host stretch, launch) and names the contents after the last one.  Its frame
  theorem reads only the argument arrays off those final contents.  Here the same run is read at EVERY buffer that
  outlives a launch: each ends at the folded contents.  (Nothing is computed here; what the folded contents are,
  as functions of the arguments, is the subject of the modules that import this one.)
-/
import proofs.«110762_j40785009443419_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every buffer that is not scoped to a
    launch ends holding the contents folded through the ten segments. -/
theorem run_contents : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W10 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c b hb => h c _ (mem_uc b hb))

end Cert.KernelIdeal.Whole

end
-- ==== Proof.LibPlainDot.lean ====
/-
  The plain product of an M×K matrix by a K×N matrix, read at one entry, at the ideal values:
  entry (a, b) is the sum over the contracted coordinate c of A(a, c) · B(c, b).
  Stated for ANY dimension record equal to the plain one (rows × contraction by contraction × columns, no batch
  axis), for a kernel's matrix product accumulated into the zero splat and for the host's product, which has no
  accumulator: adding to zero is the only arithmetic used, so both hold at the infinities too.
-/
import Idealize.ShloMosaic.Lib.StackMember

noncomputable section

namespace Cert.LibPlainDot

open Idealize.ShloMosaic Idealize.ShloMosaic.ValueIdx
open scoped BigOperators

variable {M K N : Nat} {φ₁ φ₂ : FTy}

/-- The host's plain product at entry (a, b): the sum over c of A(a, c) · B(c, b). -/
theorem dotGeneral_plain_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    Host.dotGeneral D prec A B (ix2 a b) = ∑ c : Fin K, A (ix2 a c) * B (ix2 c b) := by
  subst hD
  exact StackMember.dotGeneral_plain_apply prec A B a b

/-- A kernel's plain product accumulated into the zero splat, at entry (a, b): the same sum. -/
theorem matmul_plain_zero_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact dotGeneral_plain_apply D hD prec A B a b

end Cert.LibPlainDot

end
-- ==== Proof.Dense.lean ====
/-
  The dense stage of one graph-convolution layer, at the ideal values, entry by entry.

  A layer maps node features x (M nodes, K features each) and their graph aggregate t (same shape) to
      x · W0 + t · W1 + b                      (M nodes, N features),
  optionally followed by max(·, 0).  Entry (r, q) is
      Σ_c x(r, c) · W0(c, q)  +  Σ_c t(r, c) · W1(c, q)  +  b(q).
  The bias is carried as a one-row matrix, b(0, q), which is how a kernel receives it.

  Two programs compute this entry.  A kernel working on a block of rows multiplies into a zero accumulator,
  twice, adds the two products, adds the bias row broadcast over the rows, and takes the maximum with a zero
  splat.  The host takes the two products, adds them, adds the bias broadcast first to a row and then to all
  rows, and takes the maximum with a broadcast zero.  A product into the zero accumulator and the host's product
  are the same sum over the contracted coordinate, so both programs give exactly the expression above; no
  rearrangement of sums is needed, hence nothing here depends on the entries being finite.
-/
import Idealize.ShloMosaic.Lib.ValueIdx
import Idealize.ShloMosaic.Lib.ValueLayout
import Idealize.ShloMosaic.Lib.Pipeline.Value
import proofs.«110762_j40785009443419_1_alg».proof.Proof.LibPlainDot

noncomputable section

namespace Cert.Dense

open Idealize.ShloMosaic Idealize.ShloMosaic.ValueIdx
open scoped BigOperators

variable {M K N : Nat}

/-- Entry (r, q) before the activation: row r of x against column q of W0, row r of the aggregate against
    column q of W1, and the bias of feature q. -/
def pre (x t : FVec Ideal ⟨2, ![M, K]⟩ .f32) (W0 W1 : FVec Ideal ⟨2, ![K, N]⟩ .f32) (b : FVec Ideal ⟨2, ![1, N]⟩ .f32)
    (r : Fin M) (q : Fin N) : Ideal .f32 :=
  (∑ c : Fin K, x (ix2 r c) * W0 (ix2 c q)) + (∑ c : Fin K, t (ix2 r c) * W1 (ix2 c q)) + b (ix2 (0 : Fin 1) q)

/-- The layer without activation, as one array. -/
def layer (x t : FVec Ideal ⟨2, ![M, K]⟩ .f32) (W0 W1 : FVec Ideal ⟨2, ![K, N]⟩ .f32) (b : FVec Ideal ⟨2, ![1, N]⟩ .f32) :
    FVec Ideal ⟨2, ![M, N]⟩ .f32 :=
  fun i => pre x t W0 W1 b (i 0) (i 1)

/-- The layer followed by max(·, 0), as one array. -/
def layerRelu (x t : FVec Ideal ⟨2, ![M, K]⟩ .f32) (W0 W1 : FVec Ideal ⟨2, ![K, N]⟩ .f32) (b : FVec Ideal ⟨2, ![1, N]⟩ .f32) :
    FVec Ideal ⟨2, ![M, N]⟩ .f32 :=
  fun i => max (pre x t W0 W1 b (i 0) (i 1)) (Ideal.ofBits .f32 0x00000000#32)

/-- Two products into zero accumulators, added, plus a third array: the entry is the two sums plus that
    array's entry.  (The operands may be of any float format: at the ideal values a format is not a rounding.) -/
theorem two_products_apply (D : DotDims ⟨2, ![M, K]⟩ ⟨2, ![K, N]⟩ ⟨2, ![M, N]⟩) (hD : D = DotDims.plain M K N)
    {φ : FTy} (xb tb : FVec Ideal ⟨2, ![M, K]⟩ φ) (w0 w1 : FVec Ideal ⟨2, ![K, N]⟩ φ) (bb : FVec Ideal ⟨2, ![M, N]⟩ .f32)
    (r : Fin M) (q : Fin N) :
    addf (addf (matmul D none xb w0 (constant (F := Ideal) ⟨2, ![M, N]⟩ .f32 0x00000000#32))
        (matmul D none tb w1 (constant (F := Ideal) ⟨2, ![M, N]⟩ .f32 0x00000000#32))) bb (ix2 r q)
      = (∑ c : Fin K, xb (ix2 r c) * w0 (ix2 c q)) + (∑ c : Fin K, tb (ix2 r c) * w1 (ix2 c q)) + bb (ix2 r q) := by
  rw [addf_apply, addf_apply, LibPlainDot.matmul_plain_zero_apply D hD, LibPlainDot.matmul_plain_zero_apply D hD]

/-- The host's layer without activation is `layer`, the bias cast to one row. -/
theorem host_layer_eq (D : DotDims ⟨2, ![M, K]⟩ ⟨2, ![K, N]⟩ ⟨2, ![M, N]⟩) (hD : D = DotDims.plain M K N)
    (X T : FVec Ideal ⟨2, ![M, K]⟩ .f32) (W0 W1 : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (addf (Host.dotGeneral D none X W0) (Host.dotGeneral D none T W1))
        (broadcastInDim ⟨2, ![M, N]⟩ ![0, 1] h2 (broadcastInDim ⟨2, ![1, N]⟩ ![1] h1 b))
      = layer X T W0 W1 (shapeCast ⟨2, ![1, N]⟩ b hc) := by
  funext i
  obtain ⟨r, q, rfl⟩ : ∃ (r : Fin M) (q : Fin N), i = ix2 r q := ⟨i 0, i 1, eq_ix2 i⟩
  have hb : broadcastInDim ⟨2, ![M, N]⟩ ![0, 1] h2 (broadcastInDim ⟨2, ![1, N]⟩ ![1] h1 b) (ix2 r q)
      = shapeCast ⟨2, ![1, N]⟩ b hc (ix2 (0 : Fin 1) q) := by
    rw [shapeCast_a_1a_apply b hc (0 : Fin 1) q]
    rw [broadcastInDim_apply ![0, 1] h2 _ (ix2 r q) (ix2 (0 : Fin 1) q) (fun a => by
      match a with
      | ⟨0, _⟩ => rfl
      | ⟨1, _⟩ =>
        show q.val = if N = 1 then 0 else q.val
        split
        · have := q.isLt; omega
        · rfl)]
    exact broadcastInDim_apply ![1] h1 b (ix2 (0 : Fin 1) q) (ix1 q) (fun a => by
      match a with
      | ⟨0, _⟩ =>
        show q.val = if N = 1 then 0 else q.val
        split
        · have := q.isLt; omega
        · rfl)
  show addf (addf (Host.dotGeneral D none X W0) (Host.dotGeneral D none T W1)) _ (ix2 r q) = pre X T W0 W1 _ r q
  rw [addf_apply, addf_apply, LibPlainDot.dotGeneral_plain_apply D hD, LibPlainDot.dotGeneral_plain_apply D hD, hb]
  rfl

/-- The host's layer with activation is `layerRelu`, the bias cast to one row. -/
theorem host_layerRelu_eq (D : DotDims ⟨2, ![M, K]⟩ ⟨2, ![K, N]⟩ ⟨2, ![M, N]⟩) (hD : D = DotDims.plain M K N)
    (X T : FVec Ideal ⟨2, ![M, K]⟩ .f32) (W0 W1 : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    maximumf (addf (addf (Host.dotGeneral D none X W0) (Host.dotGeneral D none T W1))
        (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = layerRelu X T W0 W1 (shapeCast ⟨2, ![1, N]⟩ b hc) := by
  funext i
  rw [maximumf_apply, host_layer_eq D hD X T W0 W1 b h1 h2 hc]
  rw [broadcastInDim_apply ![] h0 _ i ix0 (fun a => a.elim0)]
  rfl

end Cert.Dense

end
-- ==== Proof.Block0.lean ====
/-
  Layer 1's dense stage as the kernel computes it, block of 2000 nodes by block, and what the whole output array
  holds once every block is written back: for ANY contents of the buffers at the moment the kernel is launched.

  The grid has 25 points.  At point t the kernel is given rows 2000·t … 2000·t + 1999 of the node features and of
  their aggregate (two [2000, 128] blocks), the two whole [128, 256] weight matrices and the one-row bias, and writes
  rows 2000·t … 2000·t + 1999 of the [50000, 256] output.  Entry (p, q) of the block it writes is the dense-stage entry
  of row p of its blocks, which are rows 2000·t + p of the arrays: so block t of the output is block t of ONE array,
  the layer applied to the whole arrays.  The 25 row blocks cover all 50000 rows (row r lies in block r / 2000), so the
  output array ends as that one array.
-/
import proofs.«110762_j40785009443419_1_alg».proof.Proof.Gen.KernelIdeal.Frame
import proofs.«110762_j40785009443419_1_alg».proof.Proof.Dense
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen

/-- The kernel's product record is the plain rows-by-columns one. -/
theorem dims_plain : dot_S2000x128_S128x256_S2000x256_1_0_0_1_n_n = DotDims.plain 2000 128 256 := rfl

/-- What the body stores at entry (p, q) of its output block, from the blocks it loaded: the dense-stage entry of row p, clipped below at zero.
    (The casts of a block to its own shape and the narrowing of the operands' format change nothing at the ideal values.) -/
theorem stored_apply (x0 x1 : Vec Ideal S2000x128 .f32) (x2 x3 : Vec Ideal S128x256 .f32) (x4 : Vec Ideal S1x256 .f32)
    (p : Fin 2000) (q : Fin 256) :
    k0_pay1 x0 x1 x2 x3 x4 (ix2 p q) = max (Dense.pre x0 x1 x2 x3 x4 p q) (Ideal.ofBits .f32 0x00000000#32) := by
  unfold k0_pay1
  show maximumf (addf _ _) _ (ix2 p q) = _
  rw [maximumf_apply, Dense.two_products_apply _ dims_plain]
  simp only [shapeCast_self, truncf_apply, broadcast_apply, broadcastTo_1b_ab_apply]
  rfl

section AtEntry

-- the buffers' contents when the kernel is launched
variable (V : (c : Dev nD) → (b : Ref sig .tc) → Buf (Elt Ideal) ((c : Thread nD τ).loc b))

theorem origin : (![0, 0] : Fin 2 → Nat) = fun _ => 0 := funext fun a => by fin_cases a <;> rfl

/-- Where each operand's block sits at grid point t: the two row operands and the output at block row t, the weights
    and the bias at their one block. -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the feature block at point t is row 2000·t + p of the feature array. -/
theorem features_block (c : Dev nD) (t : Fin cfg0.N) (p : Fin 2000) (k : Fin 128) (r : Fin 50000) (hr : r.val = t.val * 2000 + p.val) :
    (iblk0 V c 0 t : Vec Ideal S2000x128 .f32) (ix2 p k) = (V c main_arg0 : S50000x128.Idx → Ideal .f32) (ix2 r k) := by
  obtain ⟨e0, e1, -⟩ := block_positions t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Row p of the aggregate block at point t is row 2000·t + p of the aggregate array. -/
theorem aggregate_block (c : Dev nD) (t : Fin cfg0.N) (p : Fin 2000) (k : Fin 128) (r : Fin 50000) (hr : r.val = t.val * 2000 + p.val) :
    (iblk0 V c 1 t : Vec Ideal S2000x128 .f32) (ix2 p k) = (V c main_v45 : S50000x128.Idx → Ideal .f32) (ix2 r k) := by
  obtain ⟨-, -, e0, e1, -⟩ := block_positions t
  unfold iblk0
  rw [View.read_apply]
  show V c main_v45 _ = V c main_v45 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- The first weight matrix's block is the matrix. -/
theorem weight0_block (c : Dev nD) (t : Fin cfg0.N) (k : Fin 128) (q : Fin 256) :
    (iblk0 V c 2 t : Vec Ideal S128x256 .f32) (ix2 k q) = (V c main_arg2 : S128x256.Idx → Ideal .f32) (ix2 k q) := by
  obtain ⟨-, -, -, -, e0, e1, -⟩ := block_positions t
  unfold iblk0
  rw [View.read_apply]
  show V c main_arg2 _ = V c main_arg2 _
  congr 1
  funext a
  apply Fin.ext
  match a with
  | ⟨0, _⟩ => show win0_2.index t (0 : Fin 2) * 128 + 1 * k.val = k.val; rw [e0]; omega
  | ⟨1, _⟩ => show win0_2.index t (1 : Fin 2) * 256 + 1 * q.val = q.val; rw [e1]; omega

/-- The second weight matrix's block is the matrix. -/
theorem weight1_block (c : Dev nD) (t : Fin cfg0.N) (k : Fin 128) (q : Fin 256) :
    (iblk0 V c 3 t : Vec Ideal S128x256 .f32) (ix2 k q) = (V c main_arg3 : S128x256.Idx → Ideal .f32) (ix2 k q) := by
  obtain ⟨-, -, -, -, -, -, e0, e1, -⟩ := block_positions t
  unfold iblk0
  rw [View.read_apply]
  show V c main_arg3 _ = V c main_arg3 _
  congr 1
  funext a
  apply Fin.ext
  match a with
  | ⟨0, _⟩ => show win0_3.index t (0 : Fin 2) * 128 + 1 * k.val = k.val; rw [e0]; omega
  | ⟨1, _⟩ => show win0_3.index t (1 : Fin 2) * 256 + 1 * q.val = q.val; rw [e1]; omega

/-- The bias row's block is the bias row. -/
theorem bias_block (c : Dev nD) (t : Fin cfg0.N) (q : Fin 256) :
    (iblk0 V c 4 t : Vec Ideal S1x256 .f32) (ix2 (0 : Fin 1) q) = (V c main_v46 : S1x256.Idx → Ideal .f32) (ix2 (0 : Fin 1) q) := by
  obtain ⟨-, -, -, -, -, -, -, -, e0, e1, -⟩ := block_positions t
  unfold iblk0
  rw [View.read_apply]
  show V c main_v46 _ = V c main_v46 _
  congr 1
  funext a
  apply Fin.ext
  match a with
  | ⟨0, _⟩ => show win0_4.index t (0 : Fin 2) * 1 + 1 * 0 = 0; rw [e0]
  | ⟨1, _⟩ => show win0_4.index t (1 : Fin 2) * 256 + 1 * q.val = q.val; rw [e1]; omega

/-- The layer applied to the whole arrays as the kernel's launch finds them. -/
abbrev whole (c : Dev nD) : FVec Ideal S50000x256 .f32 :=
  Dense.layerRelu (M := 50000) (K := 128) (N := 256) (V c main_arg0) (V c main_v45) (V c main_arg2) (V c main_arg3) (V c main_v46)

/-- What point t writes back is block t of the layer applied to the whole arrays. -/
theorem written_back (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero origin]
  simp only [View.ld_unit_zero (S := S2000x128) origin, View.ld_unit_zero (S := S128x256) origin, View.ld_unit_zero (S := S1x256) origin]
  obtain ⟨-, -, -, -, -, -, -, -, -, -, e0, e1⟩ := block_positions t
  have hN : cfg0.N = 25 := N_0
  funext j
  obtain ⟨p, q, rfl⟩ : ∃ (p : Fin 2000) (q : Fin 256), j = ix2 p q := ⟨j 0, j 1, eq_ix2 j⟩
  have ht : t.val < 25 := hN ▸ t.isLt
  have hp : p.val < 2000 := p.isLt
  let r : Fin 50000 := ⟨t.val * 2000 + p.val, by omega⟩
  have hemb : ((cfg0.win 5).blk t).view.emb (ix2 p q) = (ix2 r q : S50000x256.Idx) := by
    funext a
    apply Fin.ext
    match a with
    | ⟨0, _⟩ => show win0_5.index t (0 : Fin 2) * 2000 + 1 * p.val = t.val * 2000 + p.val; rw [e0]; omega
    | ⟨1, _⟩ => show win0_5.index t (1 : Fin 2) * 256 + 1 * q.val = q.val; rw [e1]; omega
  rw [View.read_apply, hemb]
  refine (stored_apply _ _ _ _ _ p q).trans ?_
  show _ = max (Dense.pre _ _ _ _ _ r q) _
  unfold Dense.pre
  simp only [features_block V c t p _ r rfl, aggregate_block V c t p _ r rfl, weight0_block V c t, weight1_block V c t, bias_block V c t]

/-- An index of the output array lies in point t's block iff each coordinate lies in the block's range. -/
theorem in_block_iff (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v47).slice (win0_5.rect t)).set ↔ _
  rw [View.set_slice_whole, Rect.mem_set_unit]
  exact Iff.rfl

/-- Every row of the output lies in some point's block: row r in block r / 2000. -/
theorem covered (i : S50000x256.Idx) : ∃ t : Fin cfg0.N, (cfg0.win 5).flush t = true ∧ i ∈ ((cfg0.win 5).blk t).view.set := by
  have hN : cfg0.N = 25 := N_0
  have hi0 : (i 0).val < 50000 := (i 0).isLt
  have hi1 : (i 1).val < 256 := (i 1).isLt
  let t : Fin cfg0.N := ⟨(i 0).val / 2000, by rw [hN]; omega⟩
  obtain ⟨-, -, -, -, -, -, -, -, -, -, e0, e1⟩ := block_positions t
  refine ⟨t, flush0_5 t, ?_⟩
  rw [in_block_iff]
  intro a
  match a with
  | ⟨0, _⟩ =>
    show win0_5.index t (0 : Fin 2) * 2000 ≤ (i 0).val ∧ (i 0).val < win0_5.index t (0 : Fin 2) * 2000 + 2000
    rw [e0]
    show (i 0).val / 2000 * 2000 ≤ (i 0).val ∧ (i 0).val < (i 0).val / 2000 * 2000 + 2000
    omega
  | ⟨1, _⟩ =>
    show win0_5.index t (1 : Fin 2) * 256 ≤ (i 1).val ∧ (i 1).val < win0_5.index t (1 : Fin 2) * 256 + 256
    rw [e1]
    omega

/-- After the last point the output array is the layer applied to the whole arrays. -/
theorem output_array (c : Dev nD) : (dat0 V c).arrAt 5 cfg0.N = whole V c :=
  (dat0 V c).arrAt_eq_of_cover 5 (whole V c) (fun t _ => written_back V c t) covered

end AtEntry

end Cert.KernelIdeal.Layer0

end
-- ==== Proof.Block1.lean ====
/-
  Layer 2's dense stage as the kernel computes it, block of 2000 nodes by block, and what the whole output array
  holds once every block is written back: for ANY contents of the buffers at the moment the kernel is launched.

  The grid has 25 points.  At point t the kernel is given rows 2000·t … 2000·t + 1999 of the node features and of
  their aggregate (two [2000, 256] blocks), the two whole [256, 256] weight matrices and the one-row bias, and writes
  rows 2000·t … 2000·t + 1999 of the [50000, 256] output.  Entry (p, q) of the block it writes is the dense-stage entry
  of row p of its blocks, which are rows 2000·t + p of the arrays: so block t of the output is block t of ONE array,
  the layer applied to the whole arrays.  The 25 row blocks cover all 50000 rows (row r lies in block r / 2000), so the
  output array ends as that one array.
-/
import proofs.«110762_j40785009443419_1_alg».proof.Proof.Gen.KernelIdeal.Frame
import proofs.«110762_j40785009443419_1_alg».proof.Proof.Dense
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

/-- The kernel's product record is the plain rows-by-columns one. -/
theorem dims_plain : dot_S2000x256_S256x256_S2000x256_1_0_0_1_n_n = DotDims.plain 2000 256 256 := rfl

/-- What the body stores at entry (p, q) of its output block, from the blocks it loaded: the dense-stage entry of row p, clipped below at zero.
    (The casts of a block to its own shape and the narrowing of the operands' format change nothing at the ideal values.) -/
theorem stored_apply (x0 x1 : Vec Ideal S2000x256 .f32) (x2 x3 : Vec Ideal S256x256 .f32) (x4 : Vec Ideal S1x256 .f32)
    (p : Fin 2000) (q : Fin 256) :
    k1_pay1 x0 x1 x2 x3 x4 (ix2 p q) = max (Dense.pre x0 x1 x2 x3 x4 p q) (Ideal.ofBits .f32 0x00000000#32) := by
  unfold k1_pay1
  show maximumf (addf _ _) _ (ix2 p q) = _
  rw [maximumf_apply, Dense.two_products_apply _ dims_plain]
  simp only [shapeCast_self, truncf_apply, broadcast_apply, broadcastTo_1b_ab_apply]
  rfl

section AtEntry

-- the buffers' contents when the kernel is launched
variable (V : (c : Dev nD) → (b : Ref sig .tc) → Buf (Elt Ideal) ((c : Thread nD τ).loc b))

theorem origin : (![0, 0] : Fin 2 → Nat) = fun _ => 0 := funext fun a => by fin_cases a <;> rfl

/-- Where each operand's block sits at grid point t: the two row operands and the output at block row t, the weights
    and the bias at their one block. -/
theorem block_positions : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the feature block at point t is row 2000·t + p of the feature array. -/
theorem features_block (c : Dev nD) (t : Fin cfg1.N) (p : Fin 2000) (k : Fin 256) (r : Fin 50000) (hr : r.val = t.val * 2000 + p.val) :
    (iblk1 V c 0 t : Vec Ideal S2000x256 .f32) (ix2 p k) = (V c main_v47 : S50000x256.Idx → Ideal .f32) (ix2 r k) := by
  obtain ⟨e0, e1, -⟩ := block_positions t
  unfold iblk1
  rw [View.read_apply]
  show V c main_v47 _ = V c main_v47 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- Row p of the aggregate block at point t is row 2000·t + p of the aggregate array. -/
theorem aggregate_block (c : Dev nD) (t : Fin cfg1.N) (p : Fin 2000) (k : Fin 256) (r : Fin 50000) (hr : r.val = t.val * 2000 + p.val) :
    (iblk1 V c 1 t : Vec Ideal S2000x256 .f32) (ix2 p k) = (V c main_v60 : S50000x256.Idx → Ideal .f32) (ix2 r k) := by
  obtain ⟨-, -, e0, e1, -⟩ := block_positions t
  unfold iblk1
  rw [View.read_apply]
  show V c main_v60 _ = V c main_v60 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 256 + 1 * k.val = k.val; rw [e1]; omega

/-- The first weight matrix's block is the matrix. -/
theorem weight0_block (c : Dev nD) (t : Fin cfg1.N) (k : Fin 256) (q : Fin 256) :
    (iblk1 V c 2 t : Vec Ideal S256x256 .f32) (ix2 k q) = (V c main_arg5 : S256x256.Idx → Ideal .f32) (ix2 k q) := by
  obtain ⟨-, -, -, -, e0, e1, -⟩ := block_positions t
  unfold iblk1
  rw [View.read_apply]
  show V c main_arg5 _ = V c main_arg5 _
  congr 1
  funext a
  apply Fin.ext
  match a with
  | ⟨0, _⟩ => show win1_2.index t (0 : Fin 2) * 256 + 1 * k.val = k.val; rw [e0]; omega
  | ⟨1, _⟩ => show win1_2.index t (1 : Fin 2) * 256 + 1 * q.val = q.val; rw [e1]; omega

/-- The second weight matrix's block is the matrix. -/
theorem weight1_block (c : Dev nD) (t : Fin cfg1.N) (k : Fin 256) (q : Fin 256) :
    (iblk1 V c 3 t : Vec Ideal S256x256 .f32) (ix2 k q) = (V c main_arg6 : S256x256.Idx → Ideal .f32) (ix2 k q) := by
  obtain ⟨-, -, -, -, -, -, e0, e1, -⟩ := block_positions t
  unfold iblk1
  rw [View.read_apply]
  show V c main_arg6 _ = V c main_arg6 _
  congr 1
  funext a
  apply Fin.ext
  match a with
  | ⟨0, _⟩ => show win1_3.index t (0 : Fin 2) * 256 + 1 * k.val = k.val; rw [e0]; omega
  | ⟨1, _⟩ => show win1_3.index t (1 : Fin 2) * 256 + 1 * q.val = q.val; rw [e1]; omega

/-- The bias row's block is the bias row. -/
theorem bias_block (c : Dev nD) (t : Fin cfg1.N) (q : Fin 256) :
    (iblk1 V c 4 t : Vec Ideal S1x256 .f32) (ix2 (0 : Fin 1) q) = (V c main_v61 : S1x256.Idx → Ideal .f32) (ix2 (0 : Fin 1) q) := by
  obtain ⟨-, -, -, -, -, -, -, -, e0, e1, -⟩ := block_positions t
  unfold iblk1
  rw [View.read_apply]
  show V c main_v61 _ = V c main_v61 _
  congr 1
  funext a
  apply Fin.ext
  match a with
  | ⟨0, _⟩ => show win1_4.index t (0 : Fin 2) * 1 + 1 * 0 = 0; rw [e0]
  | ⟨1, _⟩ => show win1_4.index t (1 : Fin 2) * 256 + 1 * q.val = q.val; rw [e1]; omega

/-- The layer applied to the whole arrays as the kernel's launch finds them. -/
abbrev whole (c : Dev nD) : FVec Ideal S50000x256 .f32 :=
  Dense.layerRelu (M := 50000) (K := 256) (N := 256) (V c main_v47) (V c main_v60) (V c main_arg5) (V c main_arg6) (V c main_v61)

/-- What point t writes back is block t of the layer applied to the whole arrays. -/
theorem written_back (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero origin]
  simp only [View.ld_unit_zero (S := S2000x256) origin, View.ld_unit_zero (S := S256x256) origin, View.ld_unit_zero (S := S1x256) origin]
  obtain ⟨-, -, -, -, -, -, -, -, -, -, e0, e1⟩ := block_positions t
  have hN : cfg1.N = 25 := N_1
  funext j
  obtain ⟨p, q, rfl⟩ : ∃ (p : Fin 2000) (q : Fin 256), j = ix2 p q := ⟨j 0, j 1, eq_ix2 j⟩
  have ht : t.val < 25 := hN ▸ t.isLt
  have hp : p.val < 2000 := p.isLt
  let r : Fin 50000 := ⟨t.val * 2000 + p.val, by omega⟩
  have hemb : ((cfg1.win 5).blk t).view.emb (ix2 p q) = (ix2 r q : S50000x256.Idx) := by
    funext a
    apply Fin.ext
    match a with
    | ⟨0, _⟩ => show win1_5.index t (0 : Fin 2) * 2000 + 1 * p.val = t.val * 2000 + p.val; rw [e0]; omega
    | ⟨1, _⟩ => show win1_5.index t (1 : Fin 2) * 256 + 1 * q.val = q.val; rw [e1]; omega
  rw [View.read_apply, hemb]
  refine (stored_apply _ _ _ _ _ p q).trans ?_
  show _ = max (Dense.pre _ _ _ _ _ r q) _
  unfold Dense.pre
  simp only [features_block V c t p _ r rfl, aggregate_block V c t p _ r rfl, weight0_block V c t, weight1_block V c t, bias_block V c t]

/-- An index of the output array lies in point t's block iff each coordinate lies in the block's range. -/
theorem in_block_iff (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v62).slice (win1_5.rect t)).set ↔ _
  rw [View.set_slice_whole, Rect.mem_set_unit]
  exact Iff.rfl

/-- Every row of the output lies in some point's block: row r in block r / 2000. -/
theorem covered (i : S50000x256.Idx) : ∃ t : Fin cfg1.N, (cfg1.win 5).flush t = true ∧ i ∈ ((cfg1.win 5).blk t).view.set := by
  have hN : cfg1.N = 25 := N_1
  have hi0 : (i 0).val < 50000 := (i 0).isLt
  have hi1 : (i 1).val < 256 := (i 1).isLt
  let t : Fin cfg1.N := ⟨(i 0).val / 2000, by rw [hN]; omega⟩
  obtain ⟨-, -, -, -, -, -, -, -, -, -, e0, e1⟩ := block_positions t
  refine ⟨t, flush1_5 t, ?_⟩
  rw [in_block_iff]
  intro a
  match a with
  | ⟨0, _⟩ =>
    show win1_5.index t (0 : Fin 2) * 2000 ≤ (i 0).val ∧ (i 0).val < win1_5.index t (0 : Fin 2) * 2000 + 2000
    rw [e0]
    show (i 0).val / 2000 * 2000 ≤ (i 0).val ∧ (i 0).val < (i 0).val / 2000 * 2000 + 2000
    omega
  | ⟨1, _⟩ =>
    show win1_5.index t (1 : Fin 2) * 256 ≤ (i 1).val ∧ (i 1).val < win1_5.index t (1 : Fin 2) * 256 + 256
    rw [e1]
    omega

/-- After the last point the output array is the layer applied to the whole arrays. -/
theorem output_array (c : Dev nD) : (dat1 V c).arrAt 5 cfg1.N = whole V c :=
  (dat1 V c).arrAt_eq_of_cover 5 (whole V c) (fun t _ => written_back V c t) covered

end AtEntry

end Cert.KernelIdeal.Layer1

end
-- ==== Proof.Block2.lean ====
/-
  Layer 3's dense stage as the kernel computes it, block of 2000 nodes by block, and what the whole output array
  holds once every block is written back: for ANY contents of the buffers at the moment the kernel is launched.

  The grid has 25 points.  At point t the kernel is given rows 2000·t … 2000·t + 1999 of the node features and of
  their aggregate (two [2000, 256] blocks), the two whole [256, 256] weight matrices and the one-row bias, and writes
  rows 2000·t … 2000·t + 1999 of the [50000, 256] output.  Entry (p, q) of the block it writes is the dense-stage entry
  of row p of its blocks, which are rows 2000·t + p of the arrays: so block t of the output is block t of ONE array,
  the layer applied to the whole arrays.  The 25 row blocks cover all 50000 rows (row r lies in block r / 2000), so the
  output array ends as that one array.
-/
import proofs.«110762_j40785009443419_1_alg».proof.Proof.Gen.KernelIdeal.Frame
import proofs.«110762_j40785009443419_1_alg».proof.Proof.Dense
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen

/-- The kernel's product record is the plain rows-by-columns one. -/
theorem dims_plain : dot_S2000x256_S256x256_S2000x256_1_0_0_1_n_n = DotDims.plain 2000 256 256 := rfl

/-- What the body stores at entry (p, q) of its output block, from the blocks it loaded: the dense-stage entry of row p.
    (The casts of a block to its own shape and the narrowing of the operands' format change nothing at the ideal values.) -/
theorem stored_apply (x0 x1 : Vec Ideal S2000x256 .f32) (x2 x3 : Vec Ideal S256x256 .f32) (x4 : Vec Ideal S1x256 .f32)
    (p : Fin 2000) (q : Fin 256) :
    k2_pay1 x0 x1 x2 x3 x4 (ix2 p q) = Dense.pre x0 x1 x2 x3 x4 p q := by
  unfold k2_pay1
  show addf (addf _ _) _ (ix2 p q) = _
  rw [Dense.two_products_apply _ dims_plain]
  simp only [shapeCast_self, truncf_apply, broadcastTo_1b_ab_apply]
  rfl

section AtEntry

-- the buffers' contents when the kernel is launched
variable (V : (c : Dev nD) → (b : Ref sig .tc) → Buf (Elt Ideal) ((c : Thread nD τ).loc b))

theorem origin : (![0, 0] : Fin 2 → Nat) = fun _ => 0 := funext fun a => by fin_cases a <;> rfl

/-- Where each operand's block sits at grid point t: the two row operands and the output at block row t, the weights
    and the bias at their one block. -/
theorem block_positions : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the feature block at point t is row 2000·t + p of the feature array. -/
theorem features_block (c : Dev nD) (t : Fin cfg2.N) (p : Fin 2000) (k : Fin 256) (r : Fin 50000) (hr : r.val = t.val * 2000 + p.val) :
    (iblk2 V c 0 t : Vec Ideal S2000x256 .f32) (ix2 p k) = (V c main_v62 : S50000x256.Idx → Ideal .f32) (ix2 r k) := by
  obtain ⟨e0, e1, -⟩ := block_positions t
  unfold iblk2
  rw [View.read_apply]
  show V c main_v62 _ = V c main_v62 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 256 + 1 * k.val = k.val; rw [e1]; omega

/-- Row p of the aggregate block at point t is row 2000·t + p of the aggregate array. -/
theorem aggregate_block (c : Dev nD) (t : Fin cfg2.N) (p : Fin 2000) (k : Fin 256) (r : Fin 50000) (hr : r.val = t.val * 2000 + p.val) :
    (iblk2 V c 1 t : Vec Ideal S2000x256 .f32) (ix2 p k) = (V c main_v75 : S50000x256.Idx → Ideal .f32) (ix2 r k) := by
  obtain ⟨-, -, e0, e1, -⟩ := block_positions t
  unfold iblk2
  rw [View.read_apply]
  show V c main_v75 _ = V c main_v75 _
  congr 1
  funext a
  apply Fin.ext
  match a with
  | ⟨0, _⟩ => show win2_1.index t (0 : Fin 2) * 2000 + 1 * p.val = r.val; rw [e0, hr]; omega
  | ⟨1, _⟩ => show win2_1.index t (1 : Fin 2) * 256 + 1 * k.val = k.val; rw [e1]; omega

/-- The first weight matrix's block is the matrix. -/
theorem weight0_block (c : Dev nD) (t : Fin cfg2.N) (k : Fin 256) (q : Fin 256) :
    (iblk2 V c 2 t : Vec Ideal S256x256 .f32) (ix2 k q) = (V c main_arg8 : S256x256.Idx → Ideal .f32) (ix2 k q) := by
  obtain ⟨-, -, -, -, e0, e1, -⟩ := block_positions t
  unfold iblk2
  rw [View.read_apply]
  show V c main_arg8 _ = V c main_arg8 _
  congr 1
  funext a
  apply Fin.ext
  match a with
  | ⟨0, _⟩ => show win2_2.index t (0 : Fin 2) * 256 + 1 * k.val = k.val; rw [e0]; omega
  | ⟨1, _⟩ => show win2_2.index t (1 : Fin 2) * 256 + 1 * q.val = q.val; rw [e1]; omega

/-- The second weight matrix's block is the matrix. -/
theorem weight1_block (c : Dev nD) (t : Fin cfg2.N) (k : Fin 256) (q : Fin 256) :
    (iblk2 V c 3 t : Vec Ideal S256x256 .f32) (ix2 k q) = (V c main_arg9 : S256x256.Idx → Ideal .f32) (ix2 k q) := by
  obtain ⟨-, -, -, -, -, -, e0, e1, -⟩ := block_positions t
  unfold iblk2
  rw [View.read_apply]
  show V c main_arg9 _ = V c main_arg9 _
  congr 1
  funext a
  apply Fin.ext
  match a with
  | ⟨0, _⟩ => show win2_3.index t (0 : Fin 2) * 256 + 1 * k.val = k.val; rw [e0]; omega
  | ⟨1, _⟩ => show win2_3.index t (1 : Fin 2) * 256 + 1 * q.val = q.val; rw [e1]; omega

/-- The bias row's block is the bias row. -/
theorem bias_block (c : Dev nD) (t : Fin cfg2.N) (q : Fin 256) :
    (iblk2 V c 4 t : Vec Ideal S1x256 .f32) (ix2 (0 : Fin 1) q) = (V c main_v76 : S1x256.Idx → Ideal .f32) (ix2 (0 : Fin 1) q) := by
  obtain ⟨-, -, -, -, -, -, -, -, e0, e1, -⟩ := block_positions t
  unfold iblk2
  rw [View.read_apply]
  show V c main_v76 _ = V c main_v76 _
  congr 1
  funext a
  apply Fin.ext
  match a with
  | ⟨0, _⟩ => show win2_4.index t (0 : Fin 2) * 1 + 1 * 0 = 0; rw [e0]
  | ⟨1, _⟩ => show win2_4.index t (1 : Fin 2) * 256 + 1 * q.val = q.val; rw [e1]; omega

/-- The layer applied to the whole arrays as the kernel's launch finds them. -/
abbrev whole (c : Dev nD) : FVec Ideal S50000x256 .f32 :=
  Dense.layer (M := 50000) (K := 256) (N := 256) (V c main_v62) (V c main_v75) (V c main_arg8) (V c main_arg9) (V c main_v76)

/-- What point t writes back is block t of the layer applied to the whole arrays. -/
theorem written_back (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero origin]
  simp only [View.ld_unit_zero (S := S2000x256) origin, View.ld_unit_zero (S := S256x256) origin, View.ld_unit_zero (S := S1x256) origin]
  obtain ⟨-, -, -, -, -, -, -, -, -, -, e0, e1⟩ := block_positions t
  have hN : cfg2.N = 25 := N_2
  funext j
  obtain ⟨p, q, rfl⟩ : ∃ (p : Fin 2000) (q : Fin 256), j = ix2 p q := ⟨j 0, j 1, eq_ix2 j⟩
  have ht : t.val < 25 := hN ▸ t.isLt
  have hp : p.val < 2000 := p.isLt
  let r : Fin 50000 := ⟨t.val * 2000 + p.val, by omega⟩
  have hemb : ((cfg2.win 5).blk t).view.emb (ix2 p q) = (ix2 r q : S50000x256.Idx) := by
    funext a
    apply Fin.ext
    match a with
    | ⟨0, _⟩ => show win2_5.index t (0 : Fin 2) * 2000 + 1 * p.val = t.val * 2000 + p.val; rw [e0]; omega
    | ⟨1, _⟩ => show win2_5.index t (1 : Fin 2) * 256 + 1 * q.val = q.val; rw [e1]; omega
  rw [View.read_apply, hemb]
  refine (stored_apply _ _ _ _ _ p q).trans ?_
  show _ = Dense.pre _ _ _ _ _ r q
  unfold Dense.pre
  simp only [features_block V c t p _ r rfl, aggregate_block V c t p _ r rfl, weight0_block V c t, weight1_block V c t, bias_block V c t]

/-- An index of the output array lies in point t's block iff each coordinate lies in the block's range. -/
theorem in_block_iff (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v77).slice (win2_5.rect t)).set ↔ _
  rw [View.set_slice_whole, Rect.mem_set_unit]
  exact Iff.rfl

/-- Every row of the output lies in some point's block: row r in block r / 2000. -/
theorem covered (i : S50000x256.Idx) : ∃ t : Fin cfg2.N, (cfg2.win 5).flush t = true ∧ i ∈ ((cfg2.win 5).blk t).view.set := by
  have hN : cfg2.N = 25 := N_2
  have hi0 : (i 0).val < 50000 := (i 0).isLt
  have hi1 : (i 1).val < 256 := (i 1).isLt
  let t : Fin cfg2.N := ⟨(i 0).val / 2000, by rw [hN]; omega⟩
  obtain ⟨-, -, -, -, -, -, -, -, -, -, e0, e1⟩ := block_positions t
  refine ⟨t, flush2_5 t, ?_⟩
  rw [in_block_iff]
  intro a
  match a with
  | ⟨0, _⟩ =>
    show win2_5.index t (0 : Fin 2) * 2000 ≤ (i 0).val ∧ (i 0).val < win2_5.index t (0 : Fin 2) * 2000 + 2000
    rw [e0]
    show (i 0).val / 2000 * 2000 ≤ (i 0).val ∧ (i 0).val < (i 0).val / 2000 * 2000 + 2000
    omega
  | ⟨1, _⟩ =>
    show win2_5.index t (1 : Fin 2) * 256 ≤ (i 1).val ∧ (i 1).val < win2_5.index t (1 : Fin 2) * 256 + 256
    rw [e1]
    omega

/-- After the last point the output array is the layer applied to the whole arrays. -/
theorem output_array (c : Dev nD) : (dat2 V c).arrAt 5 cfg2.N = whole V c :=
  (dat2 V c).arrAt_eq_of_cover 5 (whole V c) (fun t _ => written_back V c t) covered

end AtEntry

end Cert.KernelIdeal.Layer2

end
-- ==== Proof.Stages.lean ====
/-
  The contents of the kernel program's buffers at each boundary of its run, as functions of the argument arrays.

  The program normalises the graph once (from the edge list: the source and target node of every edge, and a weight
  per edge), and then, three times over, aggregates the current node features along the edges (a host gather,
  a product with the edge weights and a scatter-add) and hands features and aggregate to the dense-stage kernel.
  The reference program does the same graph work with the same host operations, and differs only in computing each
  dense stage on the host.  Its stages are named one operation at a time by the generated read-back of the
  reference; those names serve here as the specification of what each buffer of the kernel program holds:

    before launch 1   sources, targets and edge weights as the reference's; the aggregate of the input features as
                      the reference's first aggregate; the first bias cast to one row;
    after launch 1    the output buffer holds the reference's first hidden layer  max(x·W0 + t·W1 + b, 0);
    before launch 2   the aggregate of that hidden layer is the reference's second aggregate; …
    after launch 3    the result buffer holds the reference's result.

  Every host step is the same composition of the same operations on both sides, so once the operands are known
  equal the results are equal with nothing to compute.  Each launch is the dense stage of its layer applied to
  the whole arrays (the per-layer block modules), which is the host's dense stage entry by entry (the dense module).
  Buffers no step writes keep their contents across host stretches and launches.
-/
import proofs.«110762_j40785009443419_1_alg».proof.Proof.Gen.KernelIdeal.Frame
import proofs.«110762_j40785009443419_1_alg».proof.Proof.RefRead
import proofs.«110762_j40785009443419_1_alg».proof.Proof.Dense
import proofs.«110762_j40785009443419_1_alg».proof.Proof.Block0
import proofs.«110762_j40785009443419_1_alg».proof.Proof.Block1
import proofs.«110762_j40785009443419_1_alg».proof.Proof.Block2
import Idealize.ShloMosaic.Lib.StableHlo.Run

set_option maxRecDepth 16384

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Read one buffer through the host operations that ran before it: every operation's result is its function of its
    operands' contents, and a value passed through a module-local function's typed reference is unchanged. -/
local macro "read_through_host" : tactic =>
  `(tactic| (after_results_simp; try simp only [TRef.toBuf, TRef.ofBuf, cast_eq]))

/-! ## Before launch 1: the graph's normalisation and the first aggregate -/

theorem entry1_arg0 : W5 m ρ c (Proc.devRef .tc main_arg0) = m ((c : Thread nD τ).loc main_arg0) := by
  read_through_host <;> rfl
theorem entry1_arg2 : W5 m ρ c (Proc.devRef .tc main_arg2) = m ((c : Thread nD τ).loc main_arg2) := by
  read_through_host <;> rfl
theorem entry1_arg3 : W5 m ρ c (Proc.devRef .tc main_arg3) = m ((c : Thread nD τ).loc main_arg3) := by
  read_through_host <;> rfl
theorem entry1_arg5 : W5 m ρ c (Proc.devRef .tc main_arg5) = m ((c : Thread nD τ).loc main_arg5) := by
  read_through_host <;> rfl
theorem entry1_arg6 : W5 m ρ c (Proc.devRef .tc main_arg6) = m ((c : Thread nD τ).loc main_arg6) := by
  read_through_host <;> rfl
theorem entry1_arg7 : W5 m ρ c (Proc.devRef .tc main_arg7) = m ((c : Thread nD τ).loc main_arg7) := by
  read_through_host <;> rfl
theorem entry1_arg8 : W5 m ρ c (Proc.devRef .tc main_arg8) = m ((c : Thread nD τ).loc main_arg8) := by
  read_through_host <;> rfl
theorem entry1_arg9 : W5 m ρ c (Proc.devRef .tc main_arg9) = m ((c : Thread nD τ).loc main_arg9) := by
  read_through_host <;> rfl
theorem entry1_arg10 : W5 m ρ c (Proc.devRef .tc main_arg10) = m ((c : Thread nD τ).loc main_arg10) := by
  read_through_host <;> rfl

/-- The source node of every edge. -/
theorem entry1_v1 : W5 m ρ c (Proc.devRef .tc main_v1) = val_main_v1 (F := Ideal) (m ((c : Thread nD τ).loc main_arg1)) := by
  read_through_host <;> rfl
/-- The target node of every edge. -/
theorem entry1_v3 : W5 m ρ c (Proc.devRef .tc main_v3) = val_main_v3 (F := Ideal) (m ((c : Thread nD τ).loc main_arg1)) := by
  read_through_host <;> rfl
/-- The weight of every edge: minus the product of the inverse square roots of its end nodes' degrees, zero on a loop. -/
theorem entry1_v32 : W5 m ρ c (Proc.devRef .tc main_v32) = val_main_v32 (F := Ideal) (m ((c : Thread nD τ).loc main_arg1)) := by
  read_through_host <;> rfl
/-- The input features aggregated along the edges. -/
theorem entry1_aggregate : W5 m ρ c (Proc.devRef .tc main_v45) = val_main_v45 (F := Ideal) (m ((c : Thread nD τ).loc main_arg0)) (m ((c : Thread nD τ).loc main_arg1)) := by
  read_through_host <;> rfl
/-- The first bias as one row. -/
theorem entry1_bias : W5 m ρ c (Proc.devRef .tc main_v46) = shapeCast S1x256 (m ((c : Thread nD τ).loc main_arg4)) shapeCasts_S256_S1x256 := by
  read_through_host <;> rfl

/-! ## After launch 1 -/

/-- The first hidden layer: the kernel's dense stage on the whole arrays is the host's. -/
theorem exit1_hidden : W6 m ρ c (Proc.devRef .tc main_v47) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 5).trans ?_
  rw [Layer0.output_array]
  show Dense.layerRelu (W5 m ρ c (Proc.devRef .tc main_arg0)) (W5 m ρ c (Proc.devRef .tc main_v45)) (W5 m ρ c (Proc.devRef .tc main_arg2)) (W5 m ρ c (Proc.devRef .tc main_arg3)) (W5 m ρ c (Proc.devRef .tc main_v46)) = _
  rw [entry1_arg0, entry1_aggregate, entry1_arg2, entry1_arg3, entry1_bias]
  unfold val_main_v52 val_main_v51 val_main_v48 val_main_v46 val_main_v47 val_main_v50 val_main_v49 val_main_call2_v0 val_main_call2_cst
  exact (Dense.host_layerRelu_eq Cert.ReferenceIdeal.dot_S50000x128_S128x256_S50000x256_1_0_0_1_n_n (by rfl) _ _ _ _ _ _ _ _ _).symm
theorem exit1_v1 : W6 m ρ c (Proc.devRef .tc main_v1) = val_main_v1 (F := Ideal) (m ((c : Thread nD τ).loc main_arg1)) :=
  (W6_of_ne m ρ c main_v1 (by decide)).trans (entry1_v1 m ρ c)
theorem exit1_v3 : W6 m ρ c (Proc.devRef .tc main_v3) = val_main_v3 (F := Ideal) (m ((c : Thread nD τ).loc main_arg1)) :=
  (W6_of_ne m ρ c main_v3 (by decide)).trans (entry1_v3 m ρ c)
theorem exit1_v32 : W6 m ρ c (Proc.devRef .tc main_v32) = val_main_v32 (F := Ideal) (m ((c : Thread nD τ).loc main_arg1)) :=
  (W6_of_ne m ρ c main_v32 (by decide)).trans (entry1_v32 m ρ c)
theorem exit1_arg5 : W6 m ρ c (Proc.devRef .tc main_arg5) = m ((c : Thread nD τ).loc main_arg5) :=
  (W6_of_ne m ρ c main_arg5 (by decide)).trans (entry1_arg5 m ρ c)
theorem exit1_arg6 : W6 m ρ c (Proc.devRef .tc main_arg6) = m ((c : Thread nD τ).loc main_arg6) :=
  (W6_of_ne m ρ c main_arg6 (by decide)).trans (entry1_arg6 m ρ c)
theorem exit1_arg7 : W6 m ρ c (Proc.devRef .tc main_arg7) = m ((c : Thread nD τ).loc main_arg7) :=
  (W6_of_ne m ρ c main_arg7 (by decide)).trans (entry1_arg7 m ρ c)
theorem exit1_arg8 : W6 m ρ c (Proc.devRef .tc main_arg8) = m ((c : Thread nD τ).loc main_arg8) :=
  (W6_of_ne m ρ c main_arg8 (by decide)).trans (entry1_arg8 m ρ c)
theorem exit1_arg9 : W6 m ρ c (Proc.devRef .tc main_arg9) = m ((c : Thread nD τ).loc main_arg9) :=
  (W6_of_ne m ρ c main_arg9 (by decide)).trans (entry1_arg9 m ρ c)
theorem exit1_arg10 : W6 m ρ c (Proc.devRef .tc main_arg10) = m ((c : Thread nD τ).loc main_arg10) :=
  (W6_of_ne m ρ c main_arg10 (by decide)).trans (entry1_arg10 m ρ c)

/-! ## Before launch 2: the first hidden layer aggregated -/

/-- The first hidden layer aggregated along the edges. -/
theorem entry2_aggregate : W7 m ρ c (Proc.devRef .tc main_v60) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  read_through_host
  rw [exit1_hidden, exit1_v1, exit1_v3, exit1_v32]
  rfl
/-- The second bias as one row. -/
theorem entry2_bias : W7 m ρ c (Proc.devRef .tc main_v61) = shapeCast S1x256 (m ((c : Thread nD τ).loc main_arg7)) shapeCasts_S256_S1x256 := by
  read_through_host
  rw [exit1_arg7]
  rfl
theorem entry2_hidden : W7 m ρ c (Proc.devRef .tc main_v47) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  read_through_host
  exact exit1_hidden m ρ c
theorem entry2_v1 : W7 m ρ c (Proc.devRef .tc main_v1) = val_main_v1 (F := Ideal) (m ((c : Thread nD τ).loc main_arg1)) := by
  read_through_host
  exact exit1_v1 m ρ c
theorem entry2_v3 : W7 m ρ c (Proc.devRef .tc main_v3) = val_main_v3 (F := Ideal) (m ((c : Thread nD τ).loc main_arg1)) := by
  read_through_host
  exact exit1_v3 m ρ c
theorem entry2_v32 : W7 m ρ c (Proc.devRef .tc main_v32) = val_main_v32 (F := Ideal) (m ((c : Thread nD τ).loc main_arg1)) := by
  read_through_host
  exact exit1_v32 m ρ c
theorem entry2_arg5 : W7 m ρ c (Proc.devRef .tc main_arg5) = m ((c : Thread nD τ).loc main_arg5) := by
  read_through_host
  exact exit1_arg5 m ρ c
theorem entry2_arg6 : W7 m ρ c (Proc.devRef .tc main_arg6) = m ((c : Thread nD τ).loc main_arg6) := by
  read_through_host
  exact exit1_arg6 m ρ c
theorem entry2_arg8 : W7 m ρ c (Proc.devRef .tc main_arg8) = m ((c : Thread nD τ).loc main_arg8) := by
  read_through_host
  exact exit1_arg8 m ρ c
theorem entry2_arg9 : W7 m ρ c (Proc.devRef .tc main_arg9) = m ((c : Thread nD τ).loc main_arg9) := by
  read_through_host
  exact exit1_arg9 m ρ c
theorem entry2_arg10 : W7 m ρ c (Proc.devRef .tc main_arg10) = m ((c : Thread nD τ).loc main_arg10) := by
  read_through_host
  exact exit1_arg10 m ρ c

/-! ## After launch 2 -/

/-- The second hidden layer. -/
theorem exit2_hidden : W8 m ρ c (Proc.devRef .tc main_v62) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 5).trans ?_
  rw [Layer1.output_array]
  show Dense.layerRelu (W7 m ρ c (Proc.devRef .tc main_v47)) (W7 m ρ c (Proc.devRef .tc main_v60)) (W7 m ρ c (Proc.devRef .tc main_arg5)) (W7 m ρ c (Proc.devRef .tc main_arg6)) (W7 m ρ c (Proc.devRef .tc main_v61)) = _
  rw [entry2_hidden, entry2_aggregate, entry2_arg5, entry2_arg6, entry2_bias]
  unfold val_main_v72 val_main_v71 val_main_v68 val_main_v66 val_main_v67 val_main_v70 val_main_v69 val_main_call3_v0 val_main_call3_cst
  exact (Dense.host_layerRelu_eq Cert.ReferenceIdeal.dot_S50000x256_S256x256_S50000x256_1_0_0_1_n_n (by rfl) _ _ _ _ _ _ _ _ _).symm
theorem exit2_v1 : W8 m ρ c (Proc.devRef .tc main_v1) = val_main_v1 (F := Ideal) (m ((c : Thread nD τ).loc main_arg1)) :=
  (W8_of_ne m ρ c main_v1 (by decide)).trans (entry2_v1 m ρ c)
theorem exit2_v3 : W8 m ρ c (Proc.devRef .tc main_v3) = val_main_v3 (F := Ideal) (m ((c : Thread nD τ).loc main_arg1)) :=
  (W8_of_ne m ρ c main_v3 (by decide)).trans (entry2_v3 m ρ c)
theorem exit2_v32 : W8 m ρ c (Proc.devRef .tc main_v32) = val_main_v32 (F := Ideal) (m ((c : Thread nD τ).loc main_arg1)) :=
  (W8_of_ne m ρ c main_v32 (by decide)).trans (entry2_v32 m ρ c)
theorem exit2_arg8 : W8 m ρ c (Proc.devRef .tc main_arg8) = m ((c : Thread nD τ).loc main_arg8) :=
  (W8_of_ne m ρ c main_arg8 (by decide)).trans (entry2_arg8 m ρ c)
theorem exit2_arg9 : W8 m ρ c (Proc.devRef .tc main_arg9) = m ((c : Thread nD τ).loc main_arg9) :=
  (W8_of_ne m ρ c main_arg9 (by decide)).trans (entry2_arg9 m ρ c)
theorem exit2_arg10 : W8 m ρ c (Proc.devRef .tc main_arg10) = m ((c : Thread nD τ).loc main_arg10) :=
  (W8_of_ne m ρ c main_arg10 (by decide)).trans (entry2_arg10 m ρ c)

/-! ## Before launch 3: the second hidden layer aggregated -/

/-- The second hidden layer aggregated along the edges. -/
theorem entry3_aggregate : W9 m ρ c (Proc.devRef .tc main_v75) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  read_through_host
  rw [exit2_hidden, exit2_v1, exit2_v3, exit2_v32]
  rfl
/-- The third bias as one row. -/
theorem entry3_bias : W9 m ρ c (Proc.devRef .tc main_v76) = shapeCast S1x256 (m ((c : Thread nD τ).loc main_arg10)) shapeCasts_S256_S1x256 := by
  read_through_host
  rw [exit2_arg10]
  rfl
theorem entry3_hidden : W9 m ρ c (Proc.devRef .tc main_v62) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  read_through_host
  exact exit2_hidden m ρ c
theorem entry3_arg8 : W9 m ρ c (Proc.devRef .tc main_arg8) = m ((c : Thread nD τ).loc main_arg8) := by
  read_through_host
  exact exit2_arg8 m ρ c
theorem entry3_arg9 : W9 m ρ c (Proc.devRef .tc main_arg9) = m ((c : Thread nD τ).loc main_arg9) := by
  read_through_host
  exact exit2_arg9 m ρ c

/-! ## After launch 3: the result -/

/-- The result buffer ends at the reference's result, as a function of the eleven arguments. -/
theorem result : W10 m ρ c (Proc.devRef .tc main_v77) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W10_arr m ρ c 5).trans ?_
  rw [Layer2.output_array]
  show Dense.layer (W9 m ρ c (Proc.devRef .tc main_v62)) (W9 m ρ c (Proc.devRef .tc main_v75)) (W9 m ρ c (Proc.devRef .tc main_arg8)) (W9 m ρ c (Proc.devRef .tc main_arg9)) (W9 m ρ c (Proc.devRef .tc main_v76)) = _
  rw [entry3_hidden, entry3_aggregate, entry3_arg8, entry3_arg9, entry3_bias]
  unfold val_main_v91 val_main_v88 val_main_v86 val_main_v87 val_main_v90 val_main_v89
  exact (Dense.host_layer_eq Cert.ReferenceIdeal.dot_S50000x256_S256x256_S50000x256_1_0_0_1_n_n (by rfl) _ _ _ _ _ _ _ _).symm

end Cert.KernelIdeal.Stages

end
-- ==== Proof.Claims.lean ====
/-
  The five claims.

  The kernel program and its idealisation run, without a fault, leaving their arguments as they were: the generated
  frame theorems.  The reference program is a straight line of host operations: its generated run, with the result
  forgotten, is its frame.  The idealisation rewrote no operation, so there is nothing to preserve.

  The value claim: at the ideal values, from memories that agree on the eleven arguments, both programs end with the
  same result array.  The common value is the reference's last stage as a function of the arguments.  The kernel
  program's result buffer ends at the contents folded through its ten segments, which the stage module reads as exactly
  that function; the reference's run ends at its composed term, which is that stage, and the two memories' arguments are
  equal.
-/
import proofs.«110762_j40785009443419_1_alg».proof.Defs
import proofs.«110762_j40785009443419_1_alg».proof.Proof.Gen.Kernel.Frame
import proofs.«110762_j40785009443419_1_alg».proof.Proof.Gen.KernelIdeal.Frame
import proofs.«110762_j40785009443419_1_alg».proof.Proof.Gen.ReferenceIdeal
import proofs.«110762_j40785009443419_1_alg».proof.Proof.Gen.Pre_finite_inputs
import proofs.«110762_j40785009443419_1_alg».proof.Proof.RefRun
import proofs.«110762_j40785009443419_1_alg».proof.Proof.RefRead
import proofs.«110762_j40785009443419_1_alg».proof.Proof.KernelRun
import proofs.«110762_j40785009443419_1_alg».proof.Proof.Stages

noncomputable section

namespace Cert.Proof.Claims

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the (equal) arguments. -/
theorem algebraic : Cert.algebraic_KernelIdeal_ReferenceIdeal := by
  intro m ρ m' ρ' _ hagree
  refine ⟨fun c => Cert.ReferenceIdeal.Read.val_main_v91 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Whole.run_contents m ρ)
    exact ⟨(h c Cert.KernelIdeal.main_v77 (by decide)).trans (Cert.KernelIdeal.Stages.result m ρ c),
      (h c Cert.KernelIdeal.main_arg0 (by decide)).trans (Cert.KernelIdeal.Gen.W10_main_arg0 m ρ c),
      (h c Cert.KernelIdeal.main_arg1 (by decide)).trans (Cert.KernelIdeal.Gen.W10_main_arg1 m ρ c),
      (h c Cert.KernelIdeal.main_arg2 (by decide)).trans (Cert.KernelIdeal.Gen.W10_main_arg2 m ρ c),
      (h c Cert.KernelIdeal.main_arg3 (by decide)).trans (Cert.KernelIdeal.Gen.W10_main_arg3 m ρ c),
      (h c Cert.KernelIdeal.main_arg4 (by decide)).trans (Cert.KernelIdeal.Gen.W10_main_arg4 m ρ c),
      (h c Cert.KernelIdeal.main_arg5 (by decide)).trans (Cert.KernelIdeal.Gen.W10_main_arg5 m ρ c),
      (h c Cert.KernelIdeal.main_arg6 (by decide)).trans (Cert.KernelIdeal.Gen.W10_main_arg6 m ρ c),
      (h c Cert.KernelIdeal.main_arg7 (by decide)).trans (Cert.KernelIdeal.Gen.W10_main_arg7 m ρ c),
      (h c Cert.KernelIdeal.main_arg8 (by decide)).trans (Cert.KernelIdeal.Gen.W10_main_arg8 m ρ c),
      (h c Cert.KernelIdeal.main_arg9 (by decide)).trans (Cert.KernelIdeal.Gen.W10_main_arg9 m ρ c),
      (h c Cert.KernelIdeal.main_arg10 (by decide)).trans (Cert.KernelIdeal.Gen.W10_main_arg10 m ρ c)⟩
  · refine (θ_run Cert.ReferenceIdeal.defs _ _).mono (fun _ h c => ⟨(h c).1.trans ?_, (h c).2⟩) (Cert.ReferenceIdeal.Value.run (F := Ideal) m' ρ')
    obtain ⟨e0, e1, e2, e3, e4, e5, e6, e7, e8, e9, e10⟩ := hagree c
    rw [Cert.ReferenceIdeal.Read.val_main_v91_eq, e0, e1, e2, e3, e4, e5, e6, e7, e8, e9, e10]

end Cert.Proof.Claims

end
-- ==== Proof.lean ====
/-
  Three graph-convolution layers on 50000 nodes and 400000 edges.  Each layer takes the node features x and their
  aggregate t along the normalised edges and forms  x · W0 + t · W1 + b, followed (in the first two layers) by
  max(·, 0).  The kernel program computes the aggregate with host operations and the dense stage in a kernel, 2000 nodes
  at a time; the reference computes both on the host, with the same host operations for the graph work.

  At the ideal values the two agree entry by entry: a kernel's product into a zero accumulator and the host's product
  are the same sum over the contracted coordinate, the narrowing of the kernel's operands is not a rounding, and
  everything else is the same operation on equal operands.  No sum is rearranged, so the finiteness of the inputs is
  never used.

  The modules: the dense stage entry by entry (Dense, over the plain product read at an entry, LibPlainDot); each
  launch's output array as the layer applied to whole arrays (Block0, Block1, Block2); the whole run read at every
  buffer (KernelRun); the buffers' contents at each boundary as the reference's stages (Stages); the reference's run
  and its stages one operation at a time (RefRun, RefRead); the claims (Claims).
-/
import proofs.«110762_j40785009443419_1_alg».proof.Defs
import proofs.«110762_j40785009443419_1_alg».proof.Proof.Gen.Kernel
import proofs.«110762_j40785009443419_1_alg».proof.Proof.Gen.Kernel.Skeleton
import proofs.«110762_j40785009443419_1_alg».proof.Proof.Gen.Kernel.Launch
import proofs.«110762_j40785009443419_1_alg».proof.Proof.Gen.Kernel.Points
import proofs.«110762_j40785009443419_1_alg».proof.Proof.Gen.Kernel.Frame
import proofs.«110762_j40785009443419_1_alg».proof.Proof.Gen.KernelIdeal
import proofs.«110762_j40785009443419_1_alg».proof.Proof.Gen.KernelIdeal.Skeleton
import proofs.«110762_j40785009443419_1_alg».proof.Proof.Gen.KernelIdeal.Launch
import proofs.«110762_j40785009443419_1_alg».proof.Proof.Gen.KernelIdeal.Points
import proofs.«110762_j40785009443419_1_alg».proof.Proof.Gen.KernelIdeal.Frame
import proofs.«110762_j40785009443419_1_alg».proof.Proof.Gen.ReferenceIdeal
import proofs.«110762_j40785009443419_1_alg».proof.Proof.Gen.Pre_finite_inputs
import proofs.«110762_j40785009443419_1_alg».proof.Proof.RefRun
import proofs.«110762_j40785009443419_1_alg».proof.Proof.RefRead
import proofs.«110762_j40785009443419_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_ideal, Claims.frame_reference, Claims.preserves, Claims.algebraic⟩

end Cert.Proof

end
